-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x256 : S_.BroadcastsInDim S128x256 (![] : Fin 0 → Fin S128x256.rank)
  reducesTo_S128x256_S_d0_1 : S128x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v13 : IVec S_ 1) (main_v15 : IVec S2x320000 1) (main_c_5 : IVec S_ 1) : IVec S_ 1 :=
  let main_v16 : IVec S_ 1 := (fun x v => Host.reduce IntOp.andi x v reducesTo_S2x320000_S_d0_1 h_S_) main_v15 main_c_5
  let main_v17 : IVec S_ 1 := andi main_v13 main_v16
  let main_c_6 : IVec S_ 32 := constantI S_ 32 10000#32
  let main_v18 : IVec S2x320000 32 := broadcastInDim S2x320000 ![] bcast_S_S2x320000 main_c_6
  let main_v19 : IVec S2x320000 1 := cmpi .slt main_arg1 main_v18
  let main_c_7 : IVec S_ 1 := constantI S_ 1 1#1
  let main_v20 : IVec S_ 1 := (fun x v => Host.reduce IntOp.andi x v reducesTo_S2x320000_S_d0_1 h_S_) main_v19 main_c_7
  let main_v21 : IVec S_ 1 := andi main_v17 main_v20
  main_v21

def fn {F : FTy → Type} [FloatOps F] (main_arg0 : FVec F S10000x128 .f32) (main_arg1 : IVec S2x320000 32) (main_arg2 : FVec F S320000 .f32) (main_arg3 : FVec F S128x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 1 := constantI S_ 1 1#1
  fn_part1 (F := F) main_arg1 main_v13 main_v15 main_c_5
-- ==== Kernel.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S_ : Shape := ⟨0, ![]⟩
abbrev S10000x10000 : Shape := ⟨2, ![10000, 10000]⟩
abbrev S1x320000 : Shape := ⟨2, ![1, 320000]⟩
abbrev S320000x1 : Shape := ⟨2, ![320000, 1]⟩
abbrev S320000x2 : Shape := ⟨2, ![320000, 2]⟩
abbrev S10000 : Shape := ⟨1, ![10000]⟩
abbrev S1x10000 : Shape := ⟨2, ![1, 10000]⟩
abbrev S200x10000 : Shape := ⟨2, ![200, 10000]⟩
abbrev S10000x256 : Shape := ⟨2, ![10000, 256]⟩
abbrev S1000x128 : Shape := ⟨2, ![1000, 128]⟩
abbrev S1000x256 : Shape := ⟨2, ![1000, 256]⟩

abbrev nBuf : Space → Nat
  | .hbm => 39
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x256, .f32⟩
  | .hbm, ⟨4, _⟩ => ⟨S_, .f32⟩
  | .hbm, ⟨5, _⟩ => ⟨S10000x10000, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x1, .i32⟩
  | .hbm, ⟨26, _⟩ => ⟨S320000x2, .i32⟩
  | .hbm, ⟨27, _⟩ => ⟨S10000x10000, .f32⟩
  | .hbm, ⟨28, _⟩ => ⟨S1x320000, .i32⟩
  | .hbm, ⟨29, _⟩ => ⟨S320000, .i32⟩
  | .hbm, ⟨30, _⟩ => ⟨S_, .f32⟩
  | .hbm, ⟨31, _⟩ => ⟨S10000, .f32⟩
  | .hbm, ⟨32, _⟩ => ⟨S320000x1, .i32⟩
  | .hbm, ⟨33, _⟩ => ⟨S10000, .f32⟩
  | .hbm, ⟨34, _⟩ => ⟨S1x10000, .f32⟩
  | .hbm, ⟨35, _⟩ => ⟨S10000x10000, .f32⟩
  | .hbm, ⟨36, _⟩ => ⟨S10000x128, .bf16⟩
  | .hbm, ⟨37, _⟩ => ⟨S128x256, .bf16⟩
  | .hbm, ⟨38, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S1x10000, .f32⟩
  | .local _ .vmem, ⟨3, _⟩ => ⟨S200x10000, .f32⟩
  | .local _ .vmem, ⟨4, _⟩ => ⟨S200x10000, .f32⟩
  | .local _ .vmem, ⟨5, _⟩ => ⟨S1000x128, .bf16⟩
  | .local _ .vmem, ⟨6, _⟩ => ⟨S1000x128, .bf16⟩
  | .local _ .vmem, ⟨7, _⟩ => ⟨S128x256, .bf16⟩
  | .local _ .vmem, ⟨8, _⟩ => ⟨S1000x256, .f32⟩
  | .local _ .vmem, ⟨9, _⟩ => ⟨S1000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S10000x10000 : S_.BroadcastsInDim S10000x10000 (![] : Fin 0 → Fin S10000x10000.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bcast_S_S10000 : S_.BroadcastsInDim S10000 (![] : Fin 0 → Fin S10000.rank)
  shapeCasts_S10000_S1x10000 : S10000.ShapeCasts S1x10000
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S200x10000 : S1x10000.Broadcasts S200x10000
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x256_S1000x256_0_0 : ∀ a, (![0, 0] : Fin 2 → Nat) a + S1000x256.size a ≤ S1000x256.size a
  h_S1000x256 : 0 < S1000x256.numel
  scatter_S10000x10000_S320000x2_S320000_n_01_01_1_wf : ScatterDims.WF S10000x10000 S320000x2 S320000 [] [0, 1] [0, 1] 1
  scatter_S10000_S320000x1_S320000_n_0_0_1_wf : ScatterDims.WF S10000 S320000x1 S320000 [] [0] [0] 1
  dot_S1000x128_S128x256_S1000x256_1_0_0_1_n_n_wf : DotDims.WF S1000x128 S128x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .f32 = 32 ∨ (Rect.block (s := S1x10000) S1x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .bf16 = 32 ∨ (Rect.block (s := S10000x128) S1000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf

abbrev win0_0 : Pipeline.Window sig grid0 :=
  Pipeline.Window.ofSpec (Memref.whole main_v18) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S200x10000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S_ : Shape := ⟨0, ![]⟩
abbrev S10000x10000 : Shape := ⟨2, ![10000, 10000]⟩
abbrev S1x320000 : Shape := ⟨2, ![1, 320000]⟩
abbrev S320000x1 : Shape := ⟨2, ![320000, 1]⟩
abbrev S320000x2 : Shape := ⟨2, ![320000, 2]⟩
abbrev S10000 : Shape := ⟨1, ![10000]⟩
abbrev S1x10000 : Shape := ⟨2, ![1, 10000]⟩
abbrev S10000x256 : Shape := ⟨2, ![10000, 256]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x256, .f32⟩
  | .hbm, ⟨4, _⟩ => ⟨S_, .f32⟩
  | .hbm, ⟨5, _⟩ => ⟨S10000x10000, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x1, .i32⟩
  | .hbm, ⟨26, _⟩ => ⟨S320000x2, .i32⟩
  | .hbm, ⟨27, _⟩ => ⟨S10000x10000, .f32⟩
  | .hbm, ⟨28, _⟩ => ⟨S_, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S1x10000, .f32⟩
  | .hbm, ⟨34, _⟩ => ⟨S10000x10000, .f32⟩
  | .hbm, ⟨35, _⟩ => ⟨S10000x10000, .f32⟩
  | .hbm, ⟨36, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  reducesTo_S10000x10000_S10000_d1 : S10000x10000.ReducesTo [1] S10000
  h_S_ : 0 < S_.numel
  bcast_S_S10000 : S_.BroadcastsInDim S10000 (![] : Fin 0 → Fin S10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  scatter_S10000x10000_S320000x2_S320000_n_01_01_1_wf : ScatterDims.WF S10000x10000 S320000x2 S320000 [] [0, 1] [0, 1] 1
  dot_S10000x128_S128x256_S10000x256_1_0_0_1_n_n_wf : DotDims.WF S10000x128 S128x256 S10000x256 [1] [0] [0] [1] [] []

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.KernelRun.lean ====
/-
  The kernel program's run with its results named.

  The program is four segments: the host operations that build the adjacency matrix and the row sums, the
  normalising region, the two conversions of the dense layer's operands, and the matrix-product region.  The buffer
  contents at each boundary are a fold from the launch memory; the last boundary's contents hold every result.

  The matrix product's result is the array the second region leaves: every block its grid points wrote back.
  The normalised matrix is the array the first region leaves; neither the conversions nor the second region
  write it, so it reaches the end unchanged.
-/
import proofs.«153084_j1468878815894_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix product's result buffer at the end holds what the second region's write-backs leave. -/
theorem last_product (c : Dev nD) :
    W4 m ρ c (Proc.devRef .tc main_v28) = (dat1 (V3 m ρ) c).arrAt 2 cfg1.N :=
  W4_arr m ρ c 2

/-- The normalised matrix's buffer at the end holds what the first region's write-backs leave: the second
    region does not touch it and no later host operation writes it. -/
theorem last_normalised (c : Dev nD) :
    W4 m ρ c (Proc.devRef .tc main_v25) = (dat0 (V1 m ρ) c).arrAt 2 cfg0.N :=
  calc W4 m ρ c (Proc.devRef .tc main_v25)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

set_option backward.isDefEq.respectTransparency.types false in
/-- Every weakly fair execution of the program terminates, nothing faulting, with the two result buffers at the
    last boundary's contents and the argument arrays as launched. -/
theorem run_results : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Results

end
-- ==== Proof.PreRange.lean ====
/-
  What the precondition says about the edge list.

  Beside the finiteness of the float inputs the precondition states that every word of the `2 × E` edge index array
  is a node: at least zero and below the number of nodes, as signed integers.  The two statements are conjuncts of
  the predicate's conjunction, each an "all" over the array of a comparison with a constant; read back at one
  position they bound the word there.
-/
import proofs.«153084_j1468878815894_2_alg».proof.Pre_finite_inputs
import Idealize.ShloMosaic.Lib.ReduceAll
import Idealize.ShloMosaic.Lib.ValueIdx
import Idealize.ShloMosaic.Lib.Pipeline.Value

noncomputable section

namespace Cert.PreRange

open Idealize.ShloMosaic Cert.Pre_finite_inputs

/-- The scalar shape has one index. -/
instance : Subsingleton S_.Idx := ⟨fun a b => funext fun d => d.elim0⟩

variable {F : FTy → Type} [FloatOps F] [Facts]

/-- A constant spread over the edge index array reads as the constant everywhere. -/
theorem spread_const (v : BitVec 32) (i : S2x320000.Idx) :
    (broadcastInDim S2x320000 ![] Facts.bcast_S_S2x320000 (constantI S_ 32 v) : IVec S2x320000 32) i = v :=
  broadcastInDim_apply _ Facts.bcast_S_S2x320000 (constantI S_ 32 v) i ValueIdx.ix0 (fun a => a.elim0)

/-- **Every edge index word is a node.** -/
theorem index_range (x0 : FVec F S10000x128 .f32) (x1 : IVec S2x320000 32) (x2 : FVec F S320000 .f32)
    (x3 : FVec F S128x256 .f32) (h : fn (F := F) x0 x1 x2 x3 = fun _ => 1#1) (i : S2x320000.Idx) :
    0 ≤ (x1 i).toInt ∧ (x1 i).toInt < 10000 := by
  have e := congrFun h ValueIdx.ix0
  dsimp only [fn, fn_part1] at e
  obtain ⟨e1, elt⟩ := IntOp.andi_eq_one.1 e
  obtain ⟨-, ege⟩ := IntOp.andi_eq_one.1 e1
  have hge := Host.reduce_andi_all _ _ _ _ _ ege i
  have hlt := Host.reduce_andi_all _ _ _ _ _ elt i
  have g := IntOp.cmpi_sge.1 hge
  have l := IntOp.cmpi_slt.1 hlt
  rw [spread_const] at g l
  exact ⟨g, l⟩

end Cert.PreRange

end
-- ==== Proof.LibEdgeSums.lean ====
/-
  Weighted edges summed into a matrix and into its row sums.

  A list of `E` weighted edges `(row e, col e, w e)` over `N` nodes is accumulated in two ways: into the `N × N`
  matrix whose entry `(r, k)` is the sum of the weights of the edges from `r` to `k`, and into the length-`N` vector
  whose entry `r` is the sum of the weights of the edges leaving `r`.  Both are accumulating scatters: update `e`
  lands at the position its index words name, read as signed integers, and an update whose position is outside the
  operand is dropped.

  When every index word names a node, nothing is dropped, and each edge leaving `r` lies in exactly one column, so
  summing row `r` of the matrix over its columns regroups the edges leaving `r` by their column: the row sums of
  the matrix are the vector.  Only commutativity and associativity of the sum are used, so the identity holds for
  weights in any commutative monoid, the extended reals among them.
-/
import Idealize.ShloMosaic.PureOps.Ideal
import Idealize.ShloMosaic.Lib.ValueIdx

noncomputable section

namespace Cert.EdgeSums

open Idealize.ShloMosaic Idealize.ShloMosaic.ValueIdx
open scoped BigOperators

variable {N E : Nat}

/-- The dimension numbers of `x.at[rows, cols].add(w)` for an `N × N` matrix: one index pair per edge, both operand
    axes inserted, no window. -/
def pairDims (h : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ :=
  { updateWindowDims := [], insertedWindowDims := [0, 1], scatterDimsToOperandDims := [0, 1], indexVectorDim := 1, wf := h }

/-- The dimension numbers of `x.at[rows].add(w)` for a length-`N` vector: one index per edge, the axis inserted. -/
def rowDims (h : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := h }

/-! ## Where an edge lands in the matrix -/

section Pair
variable (h : ScatterDims.WF ⟨2, ![N, N]⟩ ⟨2, ![E, 2]⟩ ⟨1, ![E]⟩ [] [0, 1] [0, 1] 1)
variable (j : (⟨1, ![E]⟩ : Shape).Idx) (idx : IVec ⟨2, ![E, 2]⟩ 32)

/-- Component `k` of edge `j`'s index pair is read at row `j`, column `k` of the index array. -/
theorem pair_siIdx (c : Fin (pairDims h).scatterDimsToOperandDims.length) (k : Fin 2) (hk : c.val = k.val) :
    (pairDims h).siIdx j c = ix2 (j 0) k := by
  funext b
  apply Fin.ext
  match b with
  | ⟨0, _⟩ =>
    unfold ScatterDims.siIdx
    split
    · next hb => exact absurd (show (0 : Nat) = 1 from hb) (by decide)
    · unfold ScatterDims.siCoord
      exact congrArg (fun z => (j z).val) (Subsingleton.elim _ _)
  | ⟨1, _⟩ =>
    unfold ScatterDims.siIdx
    split
    · exact hk
    · next hb => exact absurd rfl hb

/-- The row axis starts at the edge's first index word. -/
theorem pair_start_row : (pairDims h).start j idx 0 = (idx (ix2 (j 0) 0)).toInt := by
  unfold ScatterDims.start
  rw [dif_pos (show (0 : Fin (⟨2, ![N, N]⟩ : Shape).rank) ∈ (pairDims h).scatterDimsToOperandDims from
    (by decide : (0 : Fin 2) ∈ ([0, 1] : List (Fin 2))))]
  exact congrArg (fun z => (idx z).toInt) (pair_siIdx h j _ 0 rfl)

/-- The column axis starts at the edge's second index word. -/
theorem pair_start_col : (pairDims h).start j idx 1 = (idx (ix2 (j 0) 1)).toInt := by
  unfold ScatterDims.start
  rw [dif_pos (show (1 : Fin (⟨2, ![N, N]⟩ : Shape).rank) ∈ (pairDims h).scatterDimsToOperandDims from
    (by decide : (1 : Fin 2) ∈ ([0, 1] : List (Fin 2))))]
  exact congrArg (fun z => (idx z).toInt) (pair_siIdx h j _ 1 rfl)

/-- Both axes are inserted: there is no window coordinate. -/
theorem pair_window (a : Fin 2) : (pairDims h).window j a = 0 := by
  unfold ScatterDims.window
  rw [dif_neg (show a ∉ (pairDims h).sKept from
    (by revert a; decide : ∀ a : Fin 2, a ∉ (List.finRange 2).filter (· ∉ ([0, 1] : List (Fin 2)))) a)]

/-- An edge whose two index words name the nodes `r` and `k` lands at entry `(r, k)`. -/
theorem pair_resultIdx (r k : Fin N) (hr : (idx (ix2 (j 0) 0)).toInt = (r.val : Int))
    (hc : (idx (ix2 (j 0) 1)).toInt = (k.val : Int)) :
    (pairDims h).resultIdx? j idx = some (ix2 r k) := by
  have hrl : r.val < N := r.isLt
  have hkl : k.val < N := k.isLt
  unfold ScatterDims.resultIdx?
  have hb : ∀ a : Fin (⟨2, ![N, N]⟩ : Shape).rank, 0 ≤ (pairDims h).start j idx a + (pairDims h).window j a ∧
      (pairDims h).start j idx a + (pairDims h).window j a < (⟨2, ![N, N]⟩ : Shape).size a := fun a => by
    match a with
    | ⟨0, _⟩ =>
      show 0 ≤ (pairDims h).start j idx 0 + (pairDims h).window j 0 ∧
        (pairDims h).start j idx 0 + (pairDims h).window j 0 < ((N : Nat) : Int)
      rw [pair_start_row, pair_window, hr]; omega
    | ⟨1, _⟩ =>
      show 0 ≤ (pairDims h).start j idx 1 + (pairDims h).window j 1 ∧
        (pairDims h).start j idx 1 + (pairDims h).window j 1 < ((N : Nat) : Int)
      rw [pair_start_col, pair_window, hc]; omega
  rw [dif_pos hb]
  congr 1
  funext a
  apply Fin.ext
  match a with
  | ⟨0, _⟩ =>
    show ((pairDims h).start j idx 0 + (pairDims h).window j 0).toNat = r.val
    rw [pair_start_row, pair_window, hr]; omega
  | ⟨1, _⟩ =>
    show ((pairDims h).start j idx 1 + (pairDims h).window j 1).toNat = k.val
    rw [pair_start_col, pair_window, hc]; omega

end Pair

/-! ## Where an edge lands in the vector -/

section Row
variable (h : ScatterDims.WF ⟨1, ![N]⟩ ⟨2, ![E, 1]⟩ ⟨1, ![E]⟩ [] [0] [0] 1)
variable (j : (⟨1, ![E]⟩ : Shape).Idx) (idx : IVec ⟨2, ![E, 1]⟩ 32)

/-- Edge `j`'s index is read at row `j` of the one-column index array. -/
theorem row_siIdx (c : Fin (rowDims h).scatterDimsToOperandDims.length) :
    (rowDims h).siIdx j c = ix2 (j 0) 0 := by
  funext b
  apply Fin.ext
  match b with
  | ⟨0, _⟩ =>
    unfold ScatterDims.siIdx
    split
    · next hb => exact absurd (show (0 : Nat) = 1 from hb) (by decide)
    · unfold ScatterDims.siCoord
      exact congrArg (fun z => (j z).val) (Subsingleton.elim _ _)
  | ⟨1, _⟩ =>
    unfold ScatterDims.siIdx
    split
    · have hc : c.val < 1 := c.isLt
      show c.val = 0
      omega
    · next hb => exact absurd rfl hb

/-- The one axis starts at the edge's index word. -/
theorem row_start : (rowDims h).start j idx 0 = (idx (ix2 (j 0) 0)).toInt := by
  unfold ScatterDims.start
  rw [dif_pos (show (0 : Fin (⟨1, ![N]⟩ : Shape).rank) ∈ (rowDims h).scatterDimsToOperandDims from
    (by decide : (0 : Fin 1) ∈ ([0] : List (Fin 1))))]
  exact congrArg (fun z => (idx z).toInt) (row_siIdx h j _)

/-- The axis is inserted: there is no window coordinate. -/
theorem row_window : (rowDims h).window j 0 = 0 := by
  unfold ScatterDims.window
  rw [dif_neg (show (0 : Fin (⟨1, ![N]⟩ : Shape).rank) ∉ (rowDims h).sKept from
    (by decide : (0 : Fin 1) ∉ (List.finRange 1).filter (· ∉ ([0] : List (Fin 1)))))]

/-- An edge whose index word names the node `r` lands at entry `r`. -/
theorem row_resultIdx (r : Fin N) (hr : (idx (ix2 (j 0) 0)).toInt = (r.val : Int)) :
    (rowDims h).resultIdx? j idx = some (ix1 r) := by
  have hrl : r.val < N := r.isLt
  unfold ScatterDims.resultIdx?
  have hb : ∀ a : Fin (⟨1, ![N]⟩ : Shape).rank, 0 ≤ (rowDims h).start j idx a + (rowDims h).window j a ∧
      (rowDims h).start j idx a + (rowDims h).window j a < (⟨1, ![N]⟩ : Shape).size a := fun a => by
    match a with
    | ⟨0, _⟩ =>
      show 0 ≤ (rowDims h).start j idx 0 + (rowDims h).window j 0 ∧
        (rowDims h).start j idx 0 + (rowDims h).window j 0 < ((N : Nat) : Int)
      rw [row_start, row_window, hr]; omega
  rw [dif_pos hb]
  congr 1
  funext a
  apply Fin.ext
  match a with
  | ⟨0, _⟩ =>
    show ((rowDims h).start j idx 0 + (rowDims h).window j 0).toNat = r.val
    rw [row_start, row_window, hr]; omega

end Row

/-! ## The row sums of the matrix are the vector -/

/-- **Row sums of the accumulated matrix.**  When the index words of every edge name nodes (`rows e`, `cols e`), and the
    vector is accumulated at the same row words, then for every node `r` the sum over the columns `k` of the weights
    landing at `(r, k)` is the sum of the weights landing at `r`.  (Stated for whatever procedures decide the two
    landing conditions.) -/
theorem sum_columns_eq {M : Type} [AddCommMonoid M]
    (h2 : ScatterDims.WF ⟨2, ![N, N]⟩ ⟨2, ![E, 2]⟩ ⟨1, ![E]⟩ [] [0, 1] [0, 1] 1)
    (h1 : ScatterDims.WF ⟨1, ![N]⟩ ⟨2, ![E, 1]⟩ ⟨1, ![E]⟩ [] [0] [0] 1)
    (idx2 : IVec ⟨2, ![E, 2]⟩ 32) (idx1 : IVec ⟨2, ![E, 1]⟩ 32) (w : (⟨1, ![E]⟩ : Shape).Idx → M)
    (rows cols : Fin E → Fin N)
    (hrow2 : ∀ e : Fin E, (idx2 (ix2 e 0)).toInt = ((rows e).val : Int))
    (hcol2 : ∀ e : Fin E, (idx2 (ix2 e 1)).toInt = ((cols e).val : Int))
    (hrow1 : ∀ e : Fin E, (idx1 (ix2 e 0)).toInt = ((rows e).val : Int))
    (r : Fin N)
    [d2 : ∀ k : Fin N, DecidablePred fun j => (pairDims h2).resultIdx? j idx2 = some (ix2 r k)]
    [d1 : DecidablePred fun j => (rowDims h1).resultIdx? j idx1 = some (ix1 r)] :
    ∑ k : Fin N, ∑ j ∈ Finset.univ.filter (fun j => (pairDims h2).resultIdx? j idx2 = some (ix2 r k)), w j
      = ∑ j ∈ Finset.univ.filter (fun j => (rowDims h1).resultIdx? j idx1 = some (ix1 r)), w j := by
  have e2 : ∀ j : (⟨1, ![E]⟩ : Shape).Idx, (pairDims h2).resultIdx? j idx2 = some (ix2 (rows (j 0)) (cols (j 0))) :=
    fun j => pair_resultIdx h2 j idx2 _ _ (hrow2 (j 0)) (hcol2 (j 0))
  have e1 : ∀ j : (⟨1, ![E]⟩ : Shape).Idx, (rowDims h1).resultIdx? j idx1 = some (ix1 (rows (j 0))) :=
    fun j => row_resultIdx h1 j idx1 _ (hrow1 (j 0))
  have f2 : ∀ k : Fin N, Finset.univ.filter (fun j => (pairDims h2).resultIdx? j idx2 = some (ix2 r k))
      = (Finset.univ.filter (fun j : (⟨1, ![E]⟩ : Shape).Idx => rows (j 0) = r)).filter (fun j => cols (j 0) = k) := by
    intro k
    ext j
    simp only [Finset.mem_filter, Finset.mem_univ, true_and, e2 j, Option.some.injEq]
    constructor
    · intro hj
      exact ⟨congrFun hj 0, congrFun hj 1⟩
    · rintro ⟨ha, hb⟩
      rw [ha, hb]
  have f1 : Finset.univ.filter (fun j => (rowDims h1).resultIdx? j idx1 = some (ix1 r))
      = Finset.univ.filter (fun j : (⟨1, ![E]⟩ : Shape).Idx => rows (j 0) = r) := by
    ext j
    simp only [Finset.mem_filter, Finset.mem_univ, true_and, e1 j, Option.some.injEq]
    constructor
    · intro hj
      exact congrFun hj 0
    · intro ha
      rw [ha]
  rw [f1]
  simp only [f2]
  rw [Finset.sum_fiberwise_eq_sum_filter]
  simp only [Finset.mem_univ, Finset.filter_true]

/-- **The same, as the two accumulating scatters into zeros** over the extended reals: the sum over its columns of
    row `r` of the scattered matrix is entry `r` of the scattered vector. -/
theorem scatter_row_sums
    (h2 : ScatterDims.WF ⟨2, ![N, N]⟩ ⟨2, ![E, 2]⟩ ⟨1, ![E]⟩ [] [0, 1] [0, 1] 1)
    (h1 : ScatterDims.WF ⟨1, ![N]⟩ ⟨2, ![E, 1]⟩ ⟨1, ![E]⟩ [] [0] [0] 1)
    (idx2 : IVec ⟨2, ![E, 2]⟩ 32) (idx1 : IVec ⟨2, ![E, 1]⟩ 32) (w : (⟨1, ![E]⟩ : Shape).Idx → EReal)
    (rows cols : Fin E → Fin N)
    (hrow2 : ∀ e : Fin E, (idx2 (ix2 e 0)).toInt = ((rows e).val : Int))
    (hcol2 : ∀ e : Fin E, (idx2 (ix2 e 1)).toInt = ((cols e).val : Int))
    (hrow1 : ∀ e : Fin E, (idx1 (ix2 e 0)).toInt = ((rows e).val : Int))
    (r : Fin N) :
    ∑ k : Fin N, Ideal.hostScatterAdd (pairDims h2) (fun _ => 0) idx2 w (ix2 r k)
      = Ideal.hostScatterAdd (rowDims h1) (fun _ => 0) idx1 w (ix1 r) := by
  unfold Ideal.hostScatterAdd
  simp only [zero_add]
  exact sum_columns_eq h2 h1 idx2 idx1 w rows cols hrow2 hcol2 hrow1 r

end Cert.EdgeSums

end
-- ==== Proof.EdgeWords.lean ====
/-
  The index words the scatters read, when every word of the edge list is a node.

  The host splits the `2 × E` edge array into its row of source nodes and its row of target nodes, adds the number of
  nodes to a negative word (the wrap of a negative Python index) and keeps a non-negative one, and joins the two
  rows as the columns of an `E × 2` array.  A word that is a node is non-negative, so the wrap keeps it: row `e` of
  the joined array is the pair (source word, target word) of edge `e` unchanged.
-/
import proofs.«153084_j1468878815894_2_alg».proof.Proof.Gen.ReferenceIdeal.Read
import Idealize.ShloMosaic.Lib.Affine
import Idealize.ShloMosaic.Lib.Pipeline.Value
import Idealize.ShloMosaic.Lib.ValueIdx

noncomputable section

namespace Cert.ReferenceIdeal.EdgeWords

open Cert.ReferenceIdeal Cert.ReferenceIdeal.Gen Cert.ReferenceIdeal.Read
open Idealize.ShloMosaic Idealize.ShloMosaic.ValueIdx

variable (x1 : IVec S2x320000 32)

/-- The row of source nodes, read at edge `e`. -/
theorem source_word (e : Fin 320000) : val_main_v2 (F := Ideal) x1 (ix1 e) = x1 (ix2 (0 : Fin 2) e) := by
  rw [val_main_v2_apply, val_main_v1_apply]
  refine congrArg x1 (funext fun a => Fin.ext ?_)
  match a with
  | ⟨0, _⟩ => rfl
  | ⟨1, _⟩ => show e.val % 320000 = e.val; exact Nat.mod_eq_of_lt e.isLt

/-- The row of target nodes, read at edge `e`. -/
theorem target_word (e : Fin 320000) : val_main_v4 (F := Ideal) x1 (ix1 e) = x1 (ix2 (1 : Fin 2) e) := by
  rw [val_main_v4_apply, val_main_v3_apply]
  refine congrArg x1 (funext fun a => Fin.ext ?_)
  match a with
  | ⟨0, _⟩ => rfl
  | ⟨1, _⟩ => show e.val % 320000 = e.val; exact Nat.mod_eq_of_lt e.isLt

/-- The wrap of a negative index keeps a non-negative word. -/
theorem wrap_nonneg (w : BitVec 32) (h : 0 ≤ w.toInt) :
    Scalar.select (IntOp.cmpi .slt w 0#32) (IntOp.addi w 10000#32) w = w := by
  unfold Scalar.select
  rw [if_neg]
  intro hc
  have hlt := IntOp.cmpi_slt.1 hc
  have z : (0#32 : BitVec 32).toInt = 0 := by decide
  omega

/-- The wrapped source word of edge `e` is the word itself. -/
theorem wrapped_source (e : Fin 320000) (h : 0 ≤ (x1 (ix2 (0 : Fin 2) e)).toInt) :
    val_main_v9 (F := Ideal) x1 (ix1 e) = x1 (ix2 (0 : Fin 2) e) := by
  rw [val_main_v9_apply, val_main_v6_apply, val_main_v8_apply, val_main_v5_apply, val_main_c_apply,
    val_main_v7_apply, val_main_c_0_apply, source_word]
  exact wrap_nonneg _ h

/-- The wrapped target word of edge `e` is the word itself. -/
theorem wrapped_target (e : Fin 320000) (h : 0 ≤ (x1 (ix2 (1 : Fin 2) e)).toInt) :
    val_main_v14 (F := Ideal) x1 (ix1 e) = x1 (ix2 (1 : Fin 2) e) := by
  rw [val_main_v14_apply, val_main_v11_apply, val_main_v13_apply, val_main_v10_apply, val_main_c_1_apply,
    val_main_v12_apply, val_main_c_2_apply, target_word]
  exact wrap_nonneg _ h

/-- A length-`E` vector laid out as one column reads at row `e` as the vector at `e`. -/
theorem column_apply {α : Type} (y : S320000.Idx → α) (e : Fin 320000) :
    broadcastInDim S320000x1 ![0] bcast_S320000_S320000x1_0 y (ix2 e (0 : Fin 1)) = y (ix1 e) :=
  broadcastInDim_apply _ bcast_S320000_S320000x1_0 y (ix2 e (0 : Fin 1)) (ix1 e) (fun a => match a with
    | ⟨0, _⟩ => by show e.val = if (320000 : Nat) = 1 then 0 else e.val; rw [if_neg (by decide)])

/-- Row `e` of the joined index array, first column: the source word of edge `e`. -/
theorem pair_source (e : Fin 320000) (h : 0 ≤ (x1 (ix2 (0 : Fin 2) e)).toInt) :
    val_main_v17 (F := Ideal) x1 (ix2 e (0 : Fin 2)) = x1 (ix2 (0 : Fin 2) e) := by
  unfold val_main_v17
  rw [concatenate_pair_apply_left (1 : Fin S320000x2.rank) _ _ concatenates_S320000x1_S320000x1_S320000x2_d1
    (ix2 e (0 : Fin 2)) rfl (ix2 e (0 : Fin 1)) (fun b => match b with | ⟨0, _⟩ => rfl | ⟨1, _⟩ => rfl)]
  unfold val_main_v15
  rw [column_apply]
  exact wrapped_source x1 e h

/-- Row `e` of the joined index array, second column: the target word of edge `e`. -/
theorem pair_target (e : Fin 320000) (h : 0 ≤ (x1 (ix2 (1 : Fin 2) e)).toInt) :
    val_main_v17 (F := Ideal) x1 (ix2 e (1 : Fin 2)) = x1 (ix2 (1 : Fin 2) e) := by
  unfold val_main_v17
  rw [concatenate_pair_apply_right (1 : Fin S320000x2.rank) _ _ concatenates_S320000x1_S320000x1_S320000x2_d1
    (ix2 e (1 : Fin 2)) rfl rfl (ix2 e (0 : Fin 1))
    (fun b hb => match b with | ⟨0, _⟩ => rfl | ⟨1, _⟩ => absurd rfl hb) rfl]
  unfold val_main_v16
  rw [column_apply]
  exact wrapped_target x1 e h

end Cert.ReferenceIdeal.EdgeWords

end
-- ==== Proof.KernelHost.lean ====
/-
  What the kernel program's host operations hand to its two regions.

  Before the normalising region the host builds, from the edge list, the same adjacency matrix the reference builds
  (the same operations on the same arguments), and the vector of row sums accumulated directly from the edges at
  their row words, laid out as one row.  Before the matrix-product region it converts the two dense operands to a
  narrower float format, which over the extended reals changes nothing: the region multiplies the arguments
  themselves.
-/
import proofs.«153084_j1468878815894_2_alg».proof.Proof.Gen.KernelIdeal.Frame
import proofs.«153084_j1468878815894_2_alg».proof.Proof.Gen.ReferenceIdeal.Read
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The row sums as the kernel's host side accumulates them: every edge's weight added at its row word, laid out as
    one row. -/
def edgeRowSums (x1 : IVec S2x320000 32) (x2 : FVec Ideal S320000 .f32) : FVec Ideal S1x10000 .f32 :=
  shapeCast S1x10000
    (Host.scatterAdd scatter_S10000_S320000x1_S320000_n_0_0_1
      (broadcastInDim S10000 ![] bcast_S_S10000 (constant S_ .f32 0x00000000#32))
      (broadcastInDim S320000x1 ![0] bcast_S320000_S320000x1_0
        (shapeCast S320000 (extractStridedSlice S1x320000 ![0, 0] x1 slices_S2x320000_S1x320000_0_0) shapeCasts_S1x320000_S320000))
      x2)
    shapeCasts_S10000_S1x10000

set_option maxHeartbeats 2000000 in
/-- The matrix the normalising region finds is the reference's adjacency matrix of the arguments. -/
theorem entry_adjacency (c : Dev nD) :
    V1 m ρ c main_v18 = Cert.ReferenceIdeal.Read.val_main_v18 (F := Ideal)
      (m ((c.tc : Thread nD τ).loc main_arg1)) (m ((c.tc : Thread nD τ).loc main_arg2)) := by
  show StableHlo.after hostOps0 (W0 m ρ c) (Proc.devRef .tc main_v18) = _
  after_results_simp
  rfl

set_option maxHeartbeats 2000000 in
/-- The one-row array the normalising region finds is the edges' row sums. -/
theorem entry_rowSums (c : Dev nD) :
    V1 m ρ c main_v24 = edgeRowSums (m ((c.tc : Thread nD τ).loc main_arg1)) (m ((c.tc : Thread nD τ).loc main_arg2)) := by
  show StableHlo.after hostOps0 (W0 m ρ c) (Proc.devRef .tc main_v24) = _
  after_results_simp
  rfl

/-- An argument array is untouched up to the second stretch of host operations. -/
theorem arg0_kept (c : Dev nD) : W2 m ρ c (Proc.devRef .tc main_arg0) = m ((c.tc : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem arg3_kept (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

/-- The left operand the matrix-product region finds is the first argument: the conversion is the identity. -/
theorem entry_left (c : Dev nD) :
    (V3 m ρ c main_v26 : S10000x128.Idx → EReal) = m ((c.tc : Thread nD τ).loc main_arg0) := by
  show StableHlo.after hostOps1 (W2 m ρ c) (Proc.devRef .tc main_v26) = _
  after_results_simp
  exact arg0_kept m ρ c

/-- The right operand the matrix-product region finds is the last argument. -/
theorem entry_right (c : Dev nD) :
    (V3 m ρ c main_v27 : S128x256.Idx → EReal) = m ((c.tc : Thread nD τ).loc main_arg3) := by
  show StableHlo.after hostOps1 (W2 m ρ c) (Proc.devRef .tc main_v27) = _
  after_results_simp
  exact arg3_kept m ρ c

end Cert.KernelIdeal.HostSide

end
-- ==== Proof.KernelNormalize.lean ====
/-
  The normalising region: each entry of the matrix divided by its column's shifted sum.

  The region walks the `10000 × 10000` matrix in 50 bands of 200 rows.  At every band it holds the whole one-row
  array of sums; the body divides entry `(p, q)` of the band by the sum at `q` plus the small constant.  Band `t` is
  rows `200 t … 200 t + 199`, the bands tile the matrix, and every band is written back, so the array the region
  leaves is, entry by entry, `a (i, q) / (s (0, q) + ε)` of the two arrays the region found.
-/
import proofs.«153084_j1468878815894_2_alg».proof.Proof.Gen.KernelIdeal.Frame
import Idealize.ShloMosaic.Lib.Pipeline.Value
import Idealize.ShloMosaic.Lib.ValueIdx

set_option maxRecDepth 16384

noncomputable section

namespace Cert.KernelIdeal.Normalised

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The matrix the region finds, as a function into the extended reals. -/
abbrev matrixIn (c : Dev nD) : S10000x10000.Idx → EReal := V c main_v18
/-- The one-row array of sums the region finds. -/
abbrev sumsIn (c : Dev nD) : S1x10000.Idx → EReal := V c main_v24

/-- The matrix `a` with every entry divided by its column's entry of the one-row array `s` plus the constant. -/
abbrev columnNormalised (a : S10000x10000.Idx → EReal) (s : S1x10000.Idx → EReal) : S10000x10000.Idx → EReal :=
  fun i => Ideal.div (a i) (s (ix2 (0 : Fin 1) (⟨(i 1).val, idx2_lt1 i⟩ : Fin 10000)) + Ideal.ofBits .f32 0x1E3CE508#32)

/-- The body's value at entry `j` of a band: the band's entry over the sum at its column plus the constant. -/
theorem payload_apply (x0 : Vec Ideal S200x10000 .f32) (x1 : Vec Ideal S1x10000 .f32) (j : S200x10000.Idx) :
    k0_pay1 x0 x1 j
      = Ideal.div (x0 j) (x1 (ix2 (0 : Fin 1) (⟨(j 1).val, idx2_lt1 j⟩ : Fin 10000)) + Ideal.ofBits .f32 0x1E3CE508#32) := by
  unfold k0_pay1
  simp only [shapeCast_self]
  rw [divf_apply, broadcastTo_apply _ broadcasts_S1x10000_S200x10000 j (ix2 (0 : Fin 1) (⟨(j 1).val, idx2_lt1 j⟩ : Fin 10000))
    (fun a => by
      match a with
      | ⟨0, _⟩ => show (0 : Nat) = if (1 : Nat) = 1 then 0 else _; rw [if_pos rfl]
      | ⟨1, _⟩ => show (j 1).val = if (10000 : Nat) = 1 then 0 else (j 1).val; rw [if_neg (by decide)])]
  rfl

/-- The printed index maps, decided over the 50 bands: the matrix window and the result window are at band `t`, the
    one-row window stays at its only block. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 49 :=
  (by decide +kernel : ∀ t : Fin grid0.N, _)

/-- Every band is some grid point's. -/
theorem index_onto : ∀ q0 : Fin 50, ∃ t : Fin cfg0.N, win0_2.index t = ![q0.val, 0] :=
  (by decide +kernel : ∀ q0 : Fin 50, ∃ t : Fin grid0.N, win0_2.index t = ![q0.val, 0])

/-- What band `t` writes back is band `t` of the column-normalised matrix. -/
theorem flushed_eq (c : Dev nD) (t : Fin cfg0.N) :
    (dat0 V c).flushed 2 t
      = ((cfg0.win 2).blk t).view.read (Elt Ideal) (columnNormalised (matrixIn V c) (sumsIn V c)) := by
  show (cfg0.win 2).cut (grid0.coords t) ((dat0 V c).after 2 t) = _
  rw [after0_2 V c t]
  unfold out0_2
  rw [View.canon_unit_zero offsets_zero]
  simp only [View.ld_unit_zero (S := S200x10000) offsets_zero, View.ld_unit_zero (S := S1x10000) offsets_zero]
  obtain ⟨e0, e1, e2, e3, e4, e5⟩ := index_facts t
  funext j
  refine (payload_apply (iblk0 V c 0 t) (iblk0 V c 1 t) j).trans ?_
  show Ideal.div (matrixIn V c (((cfg0.win 0).blk t).view.emb j))
      (sumsIn V c (((cfg0.win 1).blk t).view.emb (ix2 (0 : Fin 1) (⟨(j 1).val, idx2_lt1 j⟩ : Fin 10000))) + Ideal.ofBits .f32 0x1E3CE508#32)
    = Ideal.div (matrixIn V c (((cfg0.win 2).blk t).view.emb j))
      (sumsIn V c (ix2 (0 : Fin 1) (⟨((((cfg0.win 2).blk t).view.emb j) 1).val, idx2_lt1 _⟩ : Fin 10000)) + Ideal.ofBits .f32 0x1E3CE508#32)
  have h0 : ((cfg0.win 0).blk t).view.emb j = ((cfg0.win 2).blk t).view.emb j := by
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * (j 1).val = win0_2.index t (1 : Fin 2) * 10000 + 1 * (j 1).val; omega
  have h1 : ((cfg0.win 1).blk t).view.emb (ix2 (0 : Fin 1) (⟨(j 1).val, idx2_lt1 j⟩ : Fin 10000))
      = ix2 (0 : Fin 1) (⟨((((cfg0.win 2).blk t).view.emb j) 1).val, idx2_lt1 _⟩ : Fin 10000) := by
    funext a; apply Fin.ext
    match a with
    | ⟨0, _⟩ => show win0_1.index t (0 : Fin 2) * 1 + 1 * 0 = 0; omega
    | ⟨1, _⟩ => show win0_1.index t (1 : Fin 2) * 10000 + 1 * (j 1).val = win0_2.index t (1 : Fin 2) * 10000 + 1 * (j 1).val; omega
  rw [h0, h1]

/-- An entry of the matrix is in band `t` iff each coordinate is in the band's range on its axis. -/
theorem mem_band (t : Fin cfg0.N) (i : S10000x10000.Idx) :
    i ∈ ((cfg0.win 2).blk t).view.set ↔ ∀ a : Fin 2, win0_2.index t a * S200x10000.size a ≤ (i a).val ∧ (i a).val < win0_2.index t a * S200x10000.size a + S200x10000.size a := by
  show i ∈ ((View.whole main_v25).slice (win0_2.rect t)).set ↔ _
  rw [View.set_slice_whole, Rect.mem_set_unit]
  exact Iff.rfl

/-- The bands tile the matrix: entry `i` is in band `i₀ / 200`, and every band is written back. -/
theorem bands_cover (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  obtain ⟨t, ht⟩ := index_onto ⟨(i 0).val / 200, by omega⟩
  have q0 : win0_2.index t (0 : Fin 2) = (i 0).val / 200 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 10000 ≤ (i 1).val ∧ (i 1).val < win0_2.index t (1 : Fin 2) * 10000 + 10000; omega

/-- **The array the normalising region leaves**: the column-normalised matrix of the two arrays it found. -/
theorem final (c : Dev nD) :
    (dat0 V c).arrAt 2 cfg0.N = columnNormalised (matrixIn V c) (sumsIn V c) :=
  (dat0 V c).arrAt_eq_of_cover 2 (columnNormalised (matrixIn V c) (sumsIn V c))
    (fun t _ => flushed_eq V c t) bands_cover

end Cert.KernelIdeal.Normalised

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.KernelLinear.lean ====
/-
  The matrix-product region: the dense layer `x · w`, 1000 rows at a time.

  The region walks the `10000 × 128` left operand in 10 bands of 1000 rows, holding the whole `128 × 256` right
  operand at every band; the body multiplies the band by the right operand into a zero block.  Entry `(p, q)` of a
  band's product is `∑ k, l (p, k) · r (k, q)`, which reads row `p` of the band only; the bands tile the rows and
  each is written back, so the array the region leaves is the product of the two whole arrays, entry by entry.
-/
import proofs.«153084_j1468878815894_2_alg».proof.Proof.Gen.KernelIdeal.Frame
import proofs.«153084_j1468878815894_2_alg».proof.Proof.LibMatmulPlain
import Idealize.ShloMosaic.Lib.Pipeline.Value
import Idealize.ShloMosaic.Lib.ValueIdx

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem offsets_zero : (![0, 0] : Fin 2 → Nat) = fun _ => 0 := funext fun a => by fin_cases a <;> rfl

/-- The left operand the region finds, as a function into the extended reals. -/
abbrev leftIn (c : Dev nD) : S10000x128.Idx → EReal := V c main_v26
/-- The right operand the region finds. -/
abbrev rightIn (c : Dev nD) : S128x256.Idx → EReal := V c main_v27

/-- The product of a `10000 × 128` array and a `128 × 256` array, entry by entry. -/
abbrev product (l : S10000x128.Idx → EReal) (r : S128x256.Idx → EReal) : S10000x256.Idx → EReal :=
  fun i => ∑ k : Fin 128, l (ix2 (⟨(i 0).val, idx2_lt0 i⟩ : Fin 10000) k) * r (ix2 k (⟨(i 1).val, idx2_lt1 i⟩ : Fin 256))

/-- The body's dimension numbers are those of a plain matrix product. -/
theorem plain : MatmulPlain.IsPlain (M := 1000) (N := 256) (K := 128) dot_S1000x128_S128x256_S1000x256_1_0_0_1_n_n :=
  ⟨rfl, rfl, rfl, rfl, rfl, rfl⟩

/-- The body's value at entry `j` of a band: the sum over the shared axis of the products. -/
theorem payload_apply (x0 : Vec Ideal S1000x128 .bf16) (x1 : Vec Ideal S128x256 .bf16) (j : S1000x256.Idx) :
    k1_pay1 x0 x1 j
      = ∑ k : Fin 128, x0 (ix2 (⟨(j 0).val, idx2_lt0 j⟩ : Fin 1000) k) * x1 (ix2 k (⟨(j 1).val, idx2_lt1 j⟩ : Fin 256)) := by
  unfold k1_pay1
  simp only [shapeCast_self]
  have ej : j = ix2 (⟨(j 0).val, idx2_lt0 j⟩ : Fin 1000) (⟨(j 1).val, idx2_lt1 j⟩ : Fin 256) := eq_ix2 j
  rw [ej]
  exact MatmulPlain.matmul_zero_apply plain none x0 x1 _ _

/-- The printed index maps, decided over the 10 bands: the left operand's window and the result's are at band `t`,
    the right operand's stays at its only block. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every band is some grid point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What band `t` writes back is band `t` of the product of the whole arrays. -/
theorem flushed_eq (c : Dev nD) (t : Fin cfg1.N) :
    (dat1 V c).flushed 2 t
      = ((cfg1.win 2).blk t).view.read (Elt Ideal) (product (leftIn V c) (rightIn V c)) := by
  show (cfg1.win 2).cut (grid1.coords t) ((dat1 V c).after 2 t) = _
  rw [after1_2 V c t]
  unfold out1_2
  rw [View.canon_unit_zero offsets_zero]
  simp only [View.ld_unit_zero (S := S1000x128) offsets_zero, View.ld_unit_zero (S := S128x256) offsets_zero]
  obtain ⟨e0, e1, e2, e3, e4, e5⟩ := index_facts t
  funext j
  refine (payload_apply (iblk1 V c 0 t) (iblk1 V c 1 t) j).trans ?_
  show ∑ k : Fin 128, leftIn V c (((cfg1.win 0).blk t).view.emb (ix2 (⟨(j 0).val, idx2_lt0 j⟩ : Fin 1000) k))
        * rightIn V c (((cfg1.win 1).blk t).view.emb (ix2 k (⟨(j 1).val, idx2_lt1 j⟩ : Fin 256)))
    = ∑ k : Fin 128, leftIn V c (ix2 (⟨((((cfg1.win 2).blk t).view.emb j) 0).val, idx2_lt0 _⟩ : Fin 10000) k)
        * rightIn V c (ix2 k (⟨((((cfg1.win 2).blk t).view.emb j) 1).val, idx2_lt1 _⟩ : Fin 256))
  refine Finset.sum_congr rfl fun k _ => ?_
  have hk : k.val < 128 := k.isLt
  have h0 : ((cfg1.win 0).blk t).view.emb (ix2 (⟨(j 0).val, idx2_lt0 j⟩ : Fin 1000) k)
      = ix2 (⟨((((cfg1.win 2).blk t).view.emb j) 0).val, idx2_lt0 _⟩ : Fin 10000) k := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 128 + 1 * k.val = k.val; omega
  have h1 : ((cfg1.win 1).blk t).view.emb (ix2 k (⟨(j 1).val, idx2_lt1 j⟩ : Fin 256))
      = ix2 k (⟨((((cfg1.win 2).blk t).view.emb j) 1).val, idx2_lt1 _⟩ : Fin 256) := by
    funext a; apply Fin.ext
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega
  rw [h0, h1]

/-- An entry of the result is in band `t` iff each coordinate is in the band's range on its axis. -/
theorem mem_band (t : Fin cfg1.N) (i : S10000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v28).slice (win1_2.rect t)).set ↔ _
  rw [View.set_slice_whole, Rect.mem_set_unit]
  exact Iff.rfl

/-- The bands tile the result: entry `i` is in band `i₀ / 1000`, and every band is written back. -/
theorem bands_cover (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  obtain ⟨t, ht⟩ := index_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_band]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- **The array the matrix-product region leaves**: the product of the two arrays it found. -/
theorem final (c : Dev nD) :
    (dat1 V c).arrAt 2 cfg1.N = product (leftIn V c) (rightIn V c) :=
  (dat1 V c).arrAt_eq_of_cover 2 (product (leftIn V c) (rightIn V c))
    (fun t _ => flushed_eq V c t) bands_cover

end Cert.KernelIdeal.Linear

end
-- ==== Proof.Bridge.lean ====
/-
  The two programs compute one function of the arguments.

  The reference normalises the adjacency matrix `A` by `A (i, q) / (rowsum (q) + ε)` with `rowsum (q) = ∑ k, A (q, k)`;
  the kernel divides the same matrix by `s (q) + ε` with `s` accumulated directly from the edges at their source
  words.  When every word of the edge list is a node no edge is dropped from `A`, and `∑ k, A (q, k)` regroups the
  edges leaving `q` by their target: `rowsum = s`, and the two quotients are one function.

  The dense layer is the same product on both sides: the kernel's conversions of its operands are the identity over
  the extended reals, and its bands of rows tile the product of the whole arrays.
-/
import proofs.«153084_j1468878815894_2_alg».proof.Proof.LibEdgeSums
import proofs.«153084_j1468878815894_2_alg».proof.Proof.EdgeWords
import proofs.«153084_j1468878815894_2_alg».proof.Proof.KernelHost
import proofs.«153084_j1468878815894_2_alg».proof.Proof.KernelNormalize
import proofs.«153084_j1468878815894_2_alg».proof.Proof.KernelLinear
import Idealize.ShloMosaic.PureOps.Ideal.Laws
import Idealize.ShloMosaic.Lib.Pipeline.Value

noncomputable section

namespace Cert.Bridge

open Idealize.ShloMosaic Idealize.ShloMosaic.ValueIdx
open Cert.ReferenceIdeal.Read
open scoped BigOperators

/-- The dimension numbers of the two scatters are well formed at the programs' sizes. -/
theorem wf_pair : ScatterDims.WF ⟨2, ![10000, 10000]⟩ ⟨2, ![320000, 2]⟩ ⟨1, ![320000]⟩ [] [0, 1] [0, 1] 1 :=
  Cert.ReferenceIdeal.Gen.facts₀.scatter_S10000x10000_S320000x2_S320000_n_01_01_1_wf
theorem wf_row : ScatterDims.WF ⟨1, ![10000]⟩ ⟨2, ![320000, 1]⟩ ⟨1, ![320000]⟩ [] [0] [0] 1 :=
  Cert.KernelIdeal.Gen.facts₀.scatter_S10000_S320000x1_S320000_n_0_0_1_wf

variable (x1 : IVec Cert.ReferenceIdeal.S2x320000 32) (x2 : FVec Ideal Cert.ReferenceIdeal.S320000 .f32)

/-- The kernel's index array for the row sums: the source words as one column. -/
def sourceColumn : IVec ⟨2, ![320000, 1]⟩ 32 :=
  broadcastInDim Cert.ReferenceIdeal.S320000x1 ![0] Cert.ReferenceIdeal.Gen.bcast_S320000_S320000x1_0 (val_main_v2 (F := Ideal) x1)

/-- The reference's zero matrix is zero everywhere. -/
theorem zeros_matrix : val_main_v0 (F := Ideal) = fun _ => (0 : EReal) := by
  funext i
  rw [val_main_v0_apply, val_main_cst_apply]
  exact Ideal.ofBits_zero_f32

/-- The adjacency matrix is the edge weights scattered, at the joined index pairs, into zeros. -/
theorem adjacency_eq :
    val_main_v18 (F := Ideal) x1 x2
      = Ideal.hostScatterAdd (EdgeSums.pairDims wf_pair) (fun _ => 0) (val_main_v17 (F := Ideal) x1) x2 := by
  show Ideal.hostScatterAdd (EdgeSums.pairDims wf_pair) (val_main_v0 (F := Ideal)) (val_main_v17 (F := Ideal) x1) x2 = _
  rw [zeros_matrix]

/-- The kernel's zero vector is zero everywhere. -/
theorem zeros_vector :
    (broadcastInDim Cert.KernelIdeal.S10000 ![] Cert.KernelIdeal.Gen.bcast_S_S10000
      (constant (F := Ideal) Cert.KernelIdeal.S_ .f32 0x00000000#32) : (⟨1, ![10000]⟩ : Shape).Idx → EReal) = fun _ => 0 := by
  funext i
  show Ideal.ofBits .f32 0x00000000#32 = 0
  exact Ideal.ofBits_zero_f32

/-- The host's accumulating scatter over the extended reals, with its three operands replaced by equal ones. -/
theorem scatterAdd_congr {s si u : Shape} {d d' : ScatterDims s si u} (hd : d = d')
    {A A' : s.Idx → EReal} (hA : A = A') {B B' : IVec si 32} (hB : B = B') (w : u.Idx → EReal) (i : s.Idx) :
    Host.scatterAdd (F := Ideal) (φ := .f32) d A B w i = Ideal.hostScatterAdd d' A' B' w i := by
  subst hd hA hB
  rfl

/-- Entry `r` of the kernel's row sums: the edge weights scattered, at the source words, into zeros. -/
theorem edgeRowSums_apply (r : Fin 10000) :
    Cert.KernelIdeal.HostSide.edgeRowSums x1 x2 (ix2 (0 : Fin 1) r)
      = Ideal.hostScatterAdd (EdgeSums.rowDims wf_row) (fun _ => 0) (sourceColumn x1) x2 (ix1 r) := by
  unfold Cert.KernelIdeal.HostSide.edgeRowSums
  rw [shapeCast_apply _ _ (ix2 (0 : Fin 1) r) (ix1 r)
    (by rewrite [Shape.rowMajor_val_one, Shape.rowMajor_val_two]; show r.val = 0 * 10000 + r.val; omega)]
  exact scatterAdd_congr rfl zeros_vector rfl x2 (ix1 r)

/-- The node an edge's source word names, and the node its target word names. -/
def source (hr : ∀ i : Cert.ReferenceIdeal.S2x320000.Idx, 0 ≤ (x1 i).toInt ∧ (x1 i).toInt < 10000) (e : Fin 320000) : Fin 10000 :=
  ⟨(x1 (ix2 (0 : Fin 2) e)).toInt.toNat, by have := hr (ix2 (0 : Fin 2) e); omega⟩
def target (hr : ∀ i : Cert.ReferenceIdeal.S2x320000.Idx, 0 ≤ (x1 i).toInt ∧ (x1 i).toInt < 10000) (e : Fin 320000) : Fin 10000 :=
  ⟨(x1 (ix2 (1 : Fin 2) e)).toInt.toNat, by have := hr (ix2 (1 : Fin 2) e); omega⟩

theorem source_val (hr : ∀ i : Cert.ReferenceIdeal.S2x320000.Idx, 0 ≤ (x1 i).toInt ∧ (x1 i).toInt < 10000) (e : Fin 320000) : (x1 (ix2 (0 : Fin 2) e)).toInt = ((source x1 hr e).val : Int) :=
  (Int.toNat_of_nonneg (hr _).1).symm
theorem target_val (hr : ∀ i : Cert.ReferenceIdeal.S2x320000.Idx, 0 ≤ (x1 i).toInt ∧ (x1 i).toInt < 10000) (e : Fin 320000) : (x1 (ix2 (1 : Fin 2) e)).toInt = ((target x1 hr e).val : Int) :=
  (Int.toNat_of_nonneg (hr _).1).symm

/-- **The kernel's row sums are the row sums of the adjacency matrix.** -/
theorem rowSums_eq (hr : ∀ i : Cert.ReferenceIdeal.S2x320000.Idx, 0 ≤ (x1 i).toInt ∧ (x1 i).toInt < 10000) (r : Fin 10000) :
    Cert.KernelIdeal.HostSide.edgeRowSums x1 x2 (ix2 (0 : Fin 1) r) = val_main_v19 (F := Ideal) x1 x2 (ix1 r) := by
  rw [edgeRowSums_apply, val_main_v19_apply]
  show _ = Ideal.ofBits .f32 0x00000000#32 + ∑ k : Fin 10000, val_main_v18 (F := Ideal) x1 x2 (idx_main_v19 (ix1 r) k)
  rw [Ideal.ofBits_zero_f32, zero_add, adjacency_eq]
  have hk : ∀ k : Fin 10000, idx_main_v19 (ix1 r) k = ix2 r k :=
    fun k => funext fun a => Fin.ext (by match a with | ⟨0, _⟩ => rfl | ⟨1, _⟩ => rfl)
  simp only [hk]
  refine (EdgeSums.scatter_row_sums wf_pair wf_row (val_main_v17 (F := Ideal) x1) (sourceColumn x1) x2
    (source x1 hr) (target x1 hr) (fun e => ?_) (fun e => ?_) (fun e => ?_) r).symm
  · rw [Cert.ReferenceIdeal.EdgeWords.pair_source x1 e (hr _).1]; exact source_val x1 hr e
  · rw [Cert.ReferenceIdeal.EdgeWords.pair_target x1 e (hr _).1]; exact target_val x1 hr e
  · unfold sourceColumn
    rw [Cert.ReferenceIdeal.EdgeWords.column_apply, Cert.ReferenceIdeal.EdgeWords.source_word]
    exact source_val x1 hr e

/-- **The normalised matrix**: the kernel's quotient is the reference's. -/
theorem normalised_eq (hr : ∀ i : Cert.ReferenceIdeal.S2x320000.Idx, 0 ≤ (x1 i).toInt ∧ (x1 i).toInt < 10000) :
    Cert.KernelIdeal.Normalised.columnNormalised (val_main_v18 (F := Ideal) x1 x2) (Cert.KernelIdeal.HostSide.edgeRowSums x1 x2)
      = val_main_v24 (F := Ideal) x1 x2 := by
  funext i
  rw [val_main_v24_apply, val_main_v23_apply, val_main_v22_apply, val_main_v21_apply, val_main_v20_apply, val_main_cst_4_apply]
  have hi : idx_main_v22 (idx_main_v23 i) = ix1 (⟨(i 1).val, idx2_lt1 i⟩ : Fin 10000) :=
    funext fun a => Fin.ext (by match a with | ⟨0, _⟩ => rfl)
  rw [hi, ← rowSums_eq x1 x2 hr]
  rfl

/-- **The dense layer**: the product of the whole arrays is the reference's product. -/
theorem product_eq (x0 : FVec Ideal Cert.ReferenceIdeal.S10000x128 .f32) (x3 : FVec Ideal Cert.ReferenceIdeal.S128x256 .f32) :
    Cert.KernelIdeal.Linear.product x0 x3 = val_main_v25 (F := Ideal) x0 x3 := by
  funext i
  rw [val_main_v25_apply]
  refine Finset.sum_congr rfl fun k _ => ?_
  have el : lidx_main_v25 i k = ix2 (⟨(i 0).val, idx2_lt0 i⟩ : Fin 10000) k :=
    funext fun a => Fin.ext (by match a with | ⟨0, _⟩ => rfl | ⟨1, _⟩ => rfl)
  have er : ridx_main_v25 i k = ix2 k (⟨(i 1).val, idx2_lt1 i⟩ : Fin 256) :=
    funext fun a => Fin.ext (by match a with | ⟨0, _⟩ => rfl | ⟨1, _⟩ => rfl)
  rw [el, er]

end Cert.Bridge

end
-- ==== Proof.lean ====
/-
  A graph encoder's two outputs, computed two ways: the dense layer `z = x · W` and the column-normalised adjacency
  matrix `rw (i, q) = A (i, q) / (rowsum (q) + ε)` of a weighted edge list, where `A (r, k)` sums the weights of the edges
  from `r` to `k` and `rowsum (q) = ∑ k, A (q, k)`.

  The reference computes `rowsum` from the dense matrix; the kernel accumulates it directly from the edges at their
  source words and divides band by band, and multiplies `x` by `W` 1000 rows at a time after converting both to a
  narrower float format.  Over the extended reals the conversion is the identity and the bands tile the arrays, so the
  dense layers agree outright.  The quotients agree when every word of the edge list is a node: then no edge is
  dropped from `A`, and summing row `q` of `A` over its columns regroups the edges leaving `q` by their target, which
  is the kernel's sum.  (Outside that domain an edge whose target is not a node is dropped from `A` yet still counted
  by the kernel's sum, so the precondition states it.)  Only the commutative-monoid laws of the sum are used; no
  finiteness of the weights is needed.

  The three frames: the two kernel programs' are the launch of the four segments; the reference's is its run with the
  results dropped.  The idealisation rewrote nothing, so there is nothing to preserve.
-/
import proofs.«153084_j1468878815894_2_alg».proof.Defs
import proofs.«153084_j1468878815894_2_alg».proof.Proof.Gen.Kernel
import proofs.«153084_j1468878815894_2_alg».proof.Proof.Gen.Kernel.Skeleton
import proofs.«153084_j1468878815894_2_alg».proof.Proof.Gen.Kernel.Launch
import proofs.«153084_j1468878815894_2_alg».proof.Proof.Gen.Kernel.Points
import proofs.«153084_j1468878815894_2_alg».proof.Proof.Gen.Kernel.Frame
import proofs.«153084_j1468878815894_2_alg».proof.Proof.Gen.KernelIdeal
import proofs.«153084_j1468878815894_2_alg».proof.Proof.Gen.KernelIdeal.Skeleton
import proofs.«153084_j1468878815894_2_alg».proof.Proof.Gen.KernelIdeal.Launch
import proofs.«153084_j1468878815894_2_alg».proof.Proof.Gen.KernelIdeal.Points
import proofs.«153084_j1468878815894_2_alg».proof.Proof.Gen.KernelIdeal.Frame
import proofs.«153084_j1468878815894_2_alg».proof.Proof.Gen.ReferenceIdeal
import proofs.«153084_j1468878815894_2_alg».proof.Proof.Gen.ReferenceIdeal.Run
import proofs.«153084_j1468878815894_2_alg».proof.Proof.Gen.ReferenceIdeal.Read
import proofs.«153084_j1468878815894_2_alg».proof.Proof.Gen.Pre_finite_inputs
import proofs.«153084_j1468878815894_2_alg».proof.Proof.KernelRun
import proofs.«153084_j1468878815894_2_alg».proof.Proof.PreRange
import proofs.«153084_j1468878815894_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2.2)
    (Cert.ReferenceIdeal.Value.run (F := Ideal) m ρ)

theorem preserves : Cert.preserves_Kernel_KernelIdeal := trivial

section Kernel
open Cert.KernelIdeal Cert.KernelIdeal.Gen

variable (m : (ℓ : Loc nD τ sig) → Buf (Elt Ideal) ℓ) (ρ : Dev nD → PrngReg)

/-- The kernel's dense-layer result is the reference's product of the kernel's arguments. -/
theorem kernel_product (c : Dev nD) :
    W4 m ρ c (Proc.devRef .tc main_v28)
      = Cert.ReferenceIdeal.Read.val_main_v25 (F := Ideal) (m ((c.tc : Thread nD τ).loc main_arg0)) (m ((c.tc : Thread nD τ).loc main_arg3)) := by
  refine (Cert.KernelIdeal.Results.last_product m ρ c).trans ((Cert.KernelIdeal.Linear.final (V3 m ρ) c).trans ?_)
  rw [show Cert.KernelIdeal.Linear.leftIn (V3 m ρ) c = m ((c.tc : Thread nD τ).loc main_arg0) from Cert.KernelIdeal.HostSide.entry_left m ρ c,
    show Cert.KernelIdeal.Linear.rightIn (V3 m ρ) c = m ((c.tc : Thread nD τ).loc main_arg3) from Cert.KernelIdeal.HostSide.entry_right m ρ c]
  exact Cert.Bridge.product_eq _ _

/-- The kernel's normalised matrix is the reference's quotient of the kernel's arguments, when every edge word is
    a node. -/
theorem kernel_normalised (hpre : Cert.Pre_KernelIdeal m) (c : Dev nD) :
    W4 m ρ c (Proc.devRef .tc main_v25)
      = Cert.ReferenceIdeal.Read.val_main_v24 (F := Ideal) (m ((c.tc : Thread nD τ).loc main_arg1)) (m ((c.tc : Thread nD τ).loc main_arg2)) := by
  refine (Cert.KernelIdeal.Results.last_normalised m ρ c).trans ((Cert.KernelIdeal.Normalised.final (V1 m ρ) c).trans ?_)
  rw [show Cert.KernelIdeal.Normalised.matrixIn (V1 m ρ) c
        = Cert.ReferenceIdeal.Read.val_main_v18 (F := Ideal) (m ((c.tc : Thread nD τ).loc main_arg1)) (m ((c.tc : Thread nD τ).loc main_arg2))
        from Cert.KernelIdeal.HostSide.entry_adjacency m ρ c,
    show Cert.KernelIdeal.Normalised.sumsIn (V1 m ρ) c
        = Cert.KernelIdeal.HostSide.edgeRowSums (m ((c.tc : Thread nD τ).loc main_arg1)) (m ((c.tc : Thread nD τ).loc main_arg2))
        from Cert.KernelIdeal.HostSide.entry_rowSums m ρ c]
  exact Cert.Bridge.normalised_eq _ _ (Cert.PreRange.index_range _ _ _ _ (hpre c))

end Kernel

/-- Both idealised programs end with the dense layer `x · W` three times and the normalised adjacency matrix twice,
    as the reference's two stages of the kernel's arguments. -/
theorem algebraic : Cert.algebraic_KernelIdeal_ReferenceIdeal := by
  intro m ρ m' ρ' hpre hagree
  refine ⟨fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.ReferenceIdeal.Read.val_main_v24 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v24 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Results.run_results (F := Ideal) m ρ)
    exact ⟨(h c).1.trans (kernel_product m ρ c), (h c).1.trans (kernel_product m ρ c), (h c).1.trans (kernel_product m ρ c),
      (h c).2.1.trans (kernel_normalised m ρ hpre c), (h c).2.1.trans (kernel_normalised m ρ hpre c), (h c).2.2⟩
  · refine (θ_run Cert.ReferenceIdeal.defs _ _).mono (fun r h c => ?_) (Cert.ReferenceIdeal.Value.run (F := Ideal) m' ρ')
    have ez : r.2.mem ((c.tc : Thread Cert.ReferenceIdeal.nD Cert.ReferenceIdeal.τ).loc Cert.ReferenceIdeal.main_v25)
        = Cert.ReferenceIdeal.Read.val_main_v25 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg3)) := by
      rw [(h c).1, (hagree c).1, (hagree c).2.2.2]; rfl
    have ew : r.2.mem ((c.tc : Thread Cert.ReferenceIdeal.nD Cert.ReferenceIdeal.τ).loc Cert.ReferenceIdeal.main_v24)
        = Cert.ReferenceIdeal.Read.val_main_v24 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) := by
      rw [(h c).2.2.2.1, (hagree c).2.1, (hagree c).2.2.1]; rfl
    exact ⟨ez, ez, ez, ew, ew, (h c).2.2.2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
